-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel

variable [Facts]

def fn {F : FTy → Type} [FloatOps F] (main_arg0 : FVec F S8x2048x2048 .f32) (main_arg1 : FVec F S8x2048x2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  main_v8
-- ==== Kernel.lean ====
abbrev S8x2048x2048 : Shape := ⟨3, ![8, 2048, 2048]⟩
abbrev S1x2048x256 : Shape := ⟨3, ![1, 2048, 256]⟩
abbrev S1x256x1024 : Shape := ⟨3, ![1, 256, 1024]⟩
abbrev S1x2048x1024 : Shape := ⟨3, ![1, 2048, 1024]⟩
abbrev S2048x1024 : Shape := ⟨2, ![2048, 1024]⟩
abbrev S2048x256 : Shape := ⟨2, ![2048, 256]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S8x2048x2048, .f32⟩
  | .local _ .vmem, ⟨0, _⟩ => ⟨S1x2048x256, .f32⟩
  | .local _ .vmem, ⟨1, _⟩ => ⟨S1x2048x256, .f32⟩
  | .local _ .vmem, ⟨2, _⟩ => ⟨S1x256x1024, .f32⟩
  | .local _ .vmem, ⟨3, _⟩ => ⟨S1x256x1024, .f32⟩
  | .local _ .vmem, ⟨4, _⟩ => ⟨S1x2048x1024, .f32⟩
  | .local _ .vmem, ⟨5, _⟩ => ⟨S1x2048x1024, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 1, 2, 8], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

class Facts₀ : Prop where
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S2048x1024_S1x2048x1024 : S2048x1024.ShapeCasts S1x2048x1024
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  dot_S2048x256_S256x1024_S2048x1024_1_0_0_1_n_n_wf : DotDims.WF S2048x256 S256x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x2048x2048.size a
  hwx0_0 : ∀ i : grid0.Coords, EltTy.bits .f32 = 32 ∨ (Rect.block (s := S8x2048x2048) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S8x2048x2048.size a
  hwx0_1 : ∀ i : grid0.Coords, EltTy.bits .f32 = 32 ∨ (Rect.block (s := S8x2048x2048) S1x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S8x2048x2048.size a
  hwx0_2 : ∀ i : grid0.Coords, EltTy.bits .f32 = 32 ∨ (Rect.block (s := S8x2048x2048) S1x2048x1024.size (cc0_transform_2 i) (hinb0_2 i)).WholeWords (EltTy.packing .f32)

variable [Facts₀]

def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x2048 : Shape := ⟨3, ![8, 2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8x2048x2048_S8x2048x2048_S8x2048x2048_2_1_1_2_0_0_wf : DotDims.WF S8x2048x2048 S8x2048x2048 S8x2048x2048 [2] [1] [1] [2] [0] [0]

variable [Facts₀]

def dot_S8x2048x2048_S8x2048x2048_S8x2048x2048_2_1_1_2_0_0 : DotDims S8x2048x2048 S8x2048x2048 S8x2048x2048 where
  lhsContracting := [2]
  rhsContracting := [1]
  lhsNonContracting := [1]
  rhsNonContracting := [2]
  lhsBatch := [0]
  rhsBatch := [0]
  wf := dot_S8x2048x2048_S8x2048x2048_S8x2048x2048_2_1_1_2_0_0_wf

class Facts : Prop extends Facts₀ where

variable [Facts]
-- ==== Proof.Spec.lean ====
/-
  The batched matrix product, index by index, on the extended reals.

  For two stacks of eight 2048 × 2048 matrices `A` and `B`, entry `(b, r, q)` of the product is the sum over
  `k < 2048` of `A (b, r, k) * B (b, k, q)`: member `b` of one stack times member `b` of the other. Both
  programs are shown to end with this one function of their arguments.
-/
import Idealize.ShloMosaic.PureOps.Ideal
import Idealize.ShloMosaic.Lib.ValueIdx

noncomputable section

namespace Cert.Bmm

open Idealize.ShloMosaic Idealize.ShloMosaic.ValueIdx

/-- The shape of both arguments and of the result. -/
abbrev S : Shape := ⟨3, ![8, 2048, 2048]⟩

/-- Entry `(b, r, q)` of the batched product. -/
def entry (A B : S.Idx → EReal) (b : Fin 8) (r : Fin 2048) (q : Fin 2048) : EReal :=
  ∑ k : Fin 2048, A (ix3 b r k) * B (ix3 b k q)

/-- The batched product as one function of the result's index. -/
def prod (A B : S.Idx → EReal) : S.Idx → EReal := fun i => entry A B (i 0) (i 1) (i 2)

theorem prod_ix3 (A B : S.Idx → EReal) (b : Fin 8) (r : Fin 2048) (q : Fin 2048) :
    prod A B (ix3 b r q) = entry A B b r q := rfl

end Cert.Bmm

end
-- ==== Proof.RefSide.lean ====
/-
  The reference's result is the batched product.

  The reference is one `dot_general` that batches over the leading axis and contracts the left operand's last
  axis with the right operand's middle axis. Read at an index `(b, r, q)` it is the sum over `k` of the left
  operand at `(b, r, k)` times the right operand at `(b, k, q)`.
-/
import proofs.«180169_j63831803953664_2_alg».proof.Proof.Gen.ReferenceIdeal.Read
import proofs.«180169_j63831803953664_2_alg».proof.Proof.Spec

noncomputable section

namespace Cert.ReferenceIdeal.RefValue

open Cert.ReferenceIdeal Idealize.ShloMosaic Idealize.ShloMosaic.ValueIdx

/-- The reference's one stage is the batched product of its two operands. -/
theorem stage_eq (A B : (⟨S8x2048x2048, .f32⟩ : BufTy).Contents (Elt Ideal)) :
    Read.val_main_v0 (F := Ideal) A B = Cert.Bmm.prod A B := by
  funext i
  obtain ⟨b, r, q, rfl⟩ : ∃ (b : Fin 8) (r : Fin 2048) (q : Fin 2048), i = ix3 b r q := ⟨i 0, i 1, i 2, eq_ix3 i⟩
  rw [Read.val_main_v0_apply, Cert.Bmm.prod_ix3]
  unfold Cert.Bmm.entry
  refine Finset.sum_congr rfl fun k _ => ?_
  have el : Read.lidx_main_v0 (ix3 b r q) k = ix3 b r k :=
    funext fun a => by match a with | ⟨0, _⟩ => rfl | ⟨1, _⟩ => rfl | ⟨2, _⟩ => rfl
  have er : Read.ridx_main_v0 (ix3 b r q) k = ix3 b k q :=
    funext fun a => by match a with | ⟨0, _⟩ => rfl | ⟨1, _⟩ => rfl | ⟨2, _⟩ => rfl
  rw [el, er]

end Cert.ReferenceIdeal.RefValue

end
-- ==== Proof.LibPlainDot.lean ====
/-
  A plain matrix product read at an index, at the ideal instance.

  The dimension numbers `DotDims.plain M K N` contract the left operand's second axis with the right
  operand's first: an `M × K` matrix by a `K × N` matrix. Over the extended reals both the kernel's
  matrix product into a zero accumulator and the host's `dot_general` are, at the entry `(i, j)`, the sum
  over `k : Fin K` of `lhs (i, k) * rhs (k, j)`. The library states this sum over the contracted SHAPE's
  index type; here it is re-indexed once, for every `M K N`, over `Fin K`, with both operand indices
  written from coordinates. A printed record whose six lists are those of `DotDims.plain` is that record
  (its well-formedness field is a proposition), so the lemmas apply to it after `rw [show d = .plain _ _ _ from rfl]`.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- The contraction of a plain product, re-indexed over `Fin K`. -/
theorem sum_eq (lhs : (⟨2, ![M, K]⟩ : Shape).Idx → EReal) (rhs : (⟨2, ![K, N]⟩ : Shape).Idx → EReal)
    (j : (⟨2, ![M, N]⟩ : Shape).Idx) :
    ∑ q : (DotDims.plain M K N).contr.Idx, lhs ((DotDims.plain M K N).lhsIdx j q) * rhs ((DotDims.plain M K N).rhsIdx j q)
      = ∑ k : Fin K, lhs (ix2 (j 0) k) * rhs (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row M K N _ _
      | ⟨1, _⟩ => exact ((DotDims.plain M K N).lhsIdx_val_of_single rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl j _).trans hk
      | ⟨1, _⟩ => exact rhs_col M K N _ _)
  exact congrArg₂ (· * ·) (congrArg lhs el) (congrArg rhs er)

variable {M K N}

/-- The kernel's matrix product into a zero accumulator, at `(i, j)`: the sum over `k` of `lhs (i, k) * rhs (k, j)`. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant (F := Ideal) ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_eq M K N lhs rhs (ix2 i j))

/-- The host's `dot_general` of the same operands, at `(i, j)`: the same sum. -/
theorem dotGeneral_apply {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (DotDims.plain M K N) prec lhs rhs (ix2 i j)
      = ∑ k : Fin K, lhs (ix2 i k) * rhs (ix2 k j) := by
  simp only [Host.dotGeneral]
  exact (Ideal.dotGeneral_apply (DotDims.plain M K N) prec _ lhs rhs (ix2 i j)).trans (sum_eq M K N lhs rhs (ix2 i j))

end Idealize.ShloMosaic.PlainDot

end
-- ==== Proof.Payload.lean ====
/-
  The body's two stored values, read at an index, on the extended reals.

  The body stores a zero block at the first step of a run along the contracted axis, and at every step stores
  the block it finds plus the product of the two input blocks. Narrowing the inputs to bf16 changes nothing on
  the extended reals, the leading unit axes are dropped and put back by shape casts, and the matrix unit's
  product into a zero accumulator is the plain sum over the 256 contracted positions of the block.
-/
import proofs.«180169_j63831803953664_2_alg».proof.Proof.Gen.KernelIdeal.Skeleton
import proofs.«180169_j63831803953664_2_alg».proof.Proof.LibPlainDot
import Idealize.ShloMosaic.Lib.ValueLayout
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The block stored at a run's first step is zero everywhere. -/
theorem zero_apply (u : Fin 1) (r : Fin 2048) (q : Fin 1024) :
    k0_pay1 (F := Ideal) (ix3 u r q) = 0 := by
  unfold k0_pay1
  refine (shapeCast_ab_1ab_apply _ _ u r q).trans ?_
  exact Ideal.ofBits_zero_f32

/-- The block stored at every step: the block found, plus at `(r, q)` the sum over the block's 256 contracted
    positions `k` of the left block at `(r, k)` times the right block at `(k, q)`. -/
theorem step_apply (x0 : Vec Ideal S1x2048x256 .f32) (x1 : Vec Ideal S1x256x1024 .f32)
    (acc : Vec Ideal S1x2048x1024 .f32) (u : Fin 1) (r : Fin 2048) (q : Fin 1024) :
    k0_pay2 x0 x1 acc (ix3 u r q)
      = acc (ix3 (0 : Fin 1) r q) + ∑ k : Fin 256, x0 (ix3 (0 : Fin 1) r k) * x1 (ix3 (0 : Fin 1) k q) := by
  unfold k0_pay2
  refine (shapeCast_ab_1ab_apply _ _ u r q).trans ?_
  refine (addf_apply _ _ _).trans (congrArg₂ (· + ·) (shapeCast_1ab_ab_apply acc _ r q) ?_)
  refine (PlainDot.matmul_zero_apply (M := 2048) (K := 256) (N := 1024) none _ _ r q).trans ?_
  refine Finset.sum_congr rfl fun k _ => ?_
  exact congrArg₂ (· * ·) (shapeCast_1ab_ab_apply x0 _ r k) (shapeCast_1ab_ab_apply x1 _ k q)

end Cert.KernelIdeal.Payload

end
-- ==== Proof.Blocks.lean ====
/-
  The two input blocks of a grid point, read at an index.

  The grid is 8 × 1 × 2 × 8 in row-major order, so point `t` has batch `t / 16`, output-column block
  `t / 8 % 2` and contraction step `t % 8`. The left window's block at `t` is rows `0 … 2047` and
  columns `256 * (t % 8) … + 255` of member `t / 16` of the first argument; the right window's block is rows
  `256 * (t % 8) … + 255` and columns `1024 * (t / 8 % 2) … + 1023` of member `t / 16` of the second.
-/
import proofs.«180169_j63831803953664_2_alg».proof.Proof.Gen.KernelIdeal.Frame.Runs
import Idealize.ShloMosaic.Lib.ValueIdx

noncomputable section

namespace Cert.KernelIdeal.Blocks

open Cert.KernelIdeal Cert.KernelIdeal.Gen Idealize.ShloMosaic Idealize.ShloMosaic.TcCoe Idealize.ShloMosaic.ValueIdx

variable {F : FTy → Type} [FloatOps F]
variable (m : (ℓ : Loc nD τ sig) → Buf (Elt F) ℓ)

/-- The left window's block index at point `t`: (batch, 0, contraction step). -/
theorem idx_left : ∀ t : Fin cfg0.N, win0_0.index t (0 : Fin 3) = t.val / 16 ∧ win0_0.index t (1 : Fin 3) = 0
    ∧ win0_0.index t (2 : Fin 3) = t.val % 8 :=
  (by decide +kernel : ∀ t : Fin grid0.N, _)

/-- The right window's block index at point `t`: (batch, contraction step, output-column block). -/
theorem idx_right : ∀ t : Fin cfg0.N, win0_1.index t (0 : Fin 3) = t.val / 16 ∧ win0_1.index t (1 : Fin 3) = t.val % 8
    ∧ win0_1.index t (2 : Fin 3) = t.val / 8 % 2 :=
  (by decide +kernel : ∀ t : Fin grid0.N, _)

/-- The left block at `(r', k')` is the first argument at `(t / 16, r', 256 * (t % 8) + k')`. -/
theorem left_apply (c : Dev nD) (t : Fin cfg0.N) (u : Fin 1) (r' : Fin 2048) (k' : Fin 256)
    (b : Fin 8) (r : Fin 2048) (k : Fin 2048)
    (hb : b.val = t.val / 16) (hr : r.val = r'.val) (hk : k.val = 256 * (t.val % 8) + k'.val) :
    (iblk m c 0 t : Vec F S1x2048x256 .f32) (ix3 u r' k') = m ((c : Thread nD τ).loc main_arg0) (ix3 b r k) := by
  obtain ⟨e0, e1, e2⟩ := idx_left t
  have hu : u.val = 0 := by omega
  unfold iblk
  rw [View.read_apply]
  show V m c main_arg0 _ = _
  refine congrArg (m ((c : Thread nD τ).loc main_arg0)) (funext fun a => Fin.ext ?_)
  match a with
  | ⟨0, _⟩ => show win0_0.index t (0 : Fin 3) * 1 + 1 * u.val = b.val; omega
  | ⟨1, _⟩ => show win0_0.index t (1 : Fin 3) * 2048 + 1 * r'.val = r.val; omega
  | ⟨2, _⟩ => show win0_0.index t (2 : Fin 3) * 256 + 1 * k'.val = k.val; omega

/-- The right block at `(k', q')` is the second argument at `(t / 16, 256 * (t % 8) + k', 1024 * (t / 8 % 2) + q')`. -/
theorem right_apply (c : Dev nD) (t : Fin cfg0.N) (u : Fin 1) (k' : Fin 256) (q' : Fin 1024)
    (b : Fin 8) (k : Fin 2048) (q : Fin 2048)
    (hb : b.val = t.val / 16) (hk : k.val = 256 * (t.val % 8) + k'.val) (hq : q.val = 1024 * (t.val / 8 % 2) + q'.val) :
    (iblk m c 1 t : Vec F S1x256x1024 .f32) (ix3 u k' q') = m ((c : Thread nD τ).loc main_arg1) (ix3 b k q) := by
  obtain ⟨e0, e1, e2⟩ := idx_right t
  have hu : u.val = 0 := by omega
  unfold iblk
  rw [View.read_apply]
  show V m c main_arg1 _ = _
  refine congrArg (m ((c : Thread nD τ).loc main_arg1)) (funext fun a => Fin.ext ?_)
  match a with
  | ⟨0, _⟩ => show win0_1.index t (0 : Fin 3) * 1 + 1 * u.val = b.val; omega
  | ⟨1, _⟩ => show win0_1.index t (1 : Fin 3) * 256 + 1 * k'.val = k.val; omega
  | ⟨2, _⟩ => show win0_1.index t (2 : Fin 3) * 1024 + 1 * q'.val = q.val; omega

end Cert.KernelIdeal.Blocks

end
-- ==== Proof.LibBlockSum.lean ====
/-
  A finite sum cut into consecutive blocks of one length.

  Over any commutative additive monoid, the sum of `f` over `Fin N` with `N = J * n` is the sum, over the `J`
  blocks `s`, of the sum over the `n` places `r` inside a block of `f` at the position `n * s + r`. Only
  commutativity and associativity of the addition are used, so the regrouping holds on the extended reals with
  no finiteness assumption. It sets a contraction that is accumulated block by block along the contracted axis
  beside the same contraction taken whole.
-/
import Mathlib.Data.Fintype.BigOperators
import Mathlib.Logic.Equiv.Fin.Basic

namespace Idealize.ShloMosaic.BlockSum

/-- Place `r` of block `s` lies below `J * n`. -/
theorem place_lt {J n : ℕ} (s : Fin J) (r : Fin n) : n * s.val + r.val < J * n := by
  have h1 : n * (s.val + 1) ≤ n * J := Nat.mul_le_mul_left n s.isLt
  have h2 : n * (s.val + 1) = n * s.val + n := Nat.mul_succ n s.val
  have h3 := r.isLt
  rw [Nat.mul_comm J n]
  omega

/-- The sum over `Fin N`, `N = J * n`, block by block: block `s` holds the positions `n * s + r`, `r < n`. -/
theorem sum_blocks {β : Type*} [AddCommMonoid β] {N : ℕ} (J n : ℕ) (hN : N = J * n) (f : Fin N → β) :
    ∑ k : Fin N, f k = ∑ s : Fin J, ∑ r : Fin n, f ⟨n * s.val + r.val, (place_lt s r).trans_eq hN.symm⟩ := by
  subst hN
  rw [← Fintype.sum_prod_type' (f := fun (s : Fin J) (r : Fin n) => f ⟨n * s.val + r.val, place_lt s r⟩)]
  refine (Fintype.sum_equiv finProdFinEquiv _ _ fun x => ?_).symm
  exact congrArg f (Fin.ext (Nat.add_comm _ _))

end Idealize.ShloMosaic.BlockSum
-- ==== Proof.KernelSide.lean ====
/-
  The kernel's result array is the batched product.

  The output block of batch `b` and column block `j` is visited by the eight consecutive grid points
  `16 * b + 8 * j + s`, `s = 0 … 7`. The first of them stores zero and adds its step's product, each later
  one adds its step's product to what it finds, and the last one's block is written back. At an index the
  block therefore ends holding `0` plus the sum over the eight steps `s` of the sum over the 256 contracted
  positions `k'` of the step, of the first argument at `(b, r, 256 * s + k')` times the second at
  `(b, 256 * s + k', q)`: the sum over all 2048 contracted positions, cut into eight consecutive blocks.
  Regrouping a finite sum needs only that the addition is commutative and associative, so no finiteness of the
  inputs is used.
-/
import proofs.«180169_j63831803953664_2_alg».proof.Proof.Gen.KernelIdeal.Value
import proofs.«180169_j63831803953664_2_alg».proof.Proof.Payload
import proofs.«180169_j63831803953664_2_alg».proof.Proof.Blocks
import proofs.«180169_j63831803953664_2_alg».proof.Proof.LibBlockSum
import proofs.«180169_j63831803953664_2_alg».proof.Proof.Spec

noncomputable section

namespace Cert.KernelIdeal.Whole

open Cert.KernelIdeal Cert.KernelIdeal.Gen Idealize.ShloMosaic Idealize.ShloMosaic.TcCoe Idealize.ShloMosaic.ValueIdx

variable (m : (ℓ : Loc nD τ sig) → Buf (Elt Ideal) ℓ)

/-- The two argument arrays as the region finds them. -/
abbrev argA (c : Dev nD) : FVec Ideal S8x2048x2048 .f32 := m ((c : Thread nD τ).loc main_arg0)
abbrev argB (c : Dev nD) : FVec Ideal S8x2048x2048 .f32 := m ((c : Thread nD τ).loc main_arg1)

/-- The two input blocks of grid point `n`. -/
abbrev blockL (c : Dev nD) (n : ℕ) (h : n < cfg0.N) : FVec Ideal S1x2048x256 .f32 := iblk m c 0 ⟨n, h⟩
abbrev blockR (c : Dev nD) (n : ℕ) (h : n < cfg0.N) : FVec Ideal S1x256x1024 .f32 := iblk m c 1 ⟨n, h⟩

/-- What grid point `n` adds at `(r, q)` of its output block: the product of its two input blocks there
    (zero for a number past the grid, which is never used). -/
def addendAt (c : Dev nD) (n : ℕ) (r : Fin 2048) (q : Fin 1024) : EReal :=
  if h : n < cfg0.N then
    ∑ k : Fin 256, blockL m c n h (ix3 (0 : Fin 1) r k) * blockR m c n h (ix3 (0 : Fin 1) k q)
  else 0

/-- The same, at an index of the output block. -/
def addend (c : Dev nD) (n : ℕ) (y : S1x2048x1024.Idx) : EReal := addendAt m c n (y 1) (y 2)

/-- A run's first point leaves zero plus its addend. -/
theorem reset_apply (c : Dev nD) (n : ℕ) (h : n < cfg0.N) (y : S1x2048x1024.Idx) :
    Value.reset2 m c n h y = 0 + addend m c n y := by
  obtain ⟨u, r, q, rfl⟩ : ∃ (u : Fin 1) (r : Fin 2048) (q : Fin 1024), y = ix3 u r q := ⟨y 0, y 1, y 2, eq_ix3 y⟩
  unfold Value.reset2 addend addendAt
  rw [dif_pos h]
  refine (Payload.step_apply (iblk m c 0 ⟨n, h⟩) (iblk m c 1 ⟨n, h⟩) (k0_pay1 (F := Ideal)) u r q).trans ?_
  rw [Payload.zero_apply]

/-- A later point leaves what it found plus its addend. -/
theorem step_apply (c : Dev nD) (n : ℕ) (h : n < cfg0.N) (acc : Vec Ideal S1x2048x1024 .f32) (y : S1x2048x1024.Idx) :
    Value.step2 m c n h acc y = acc y + addend m c n y := by
  obtain ⟨u, r, q, rfl⟩ : ∃ (u : Fin 1) (r : Fin 2048) (q : Fin 1024), y = ix3 u r q := ⟨y 0, y 1, y 2, eq_ix3 y⟩
  unfold Value.step2 addend addendAt
  rw [dif_pos h]
  refine (Payload.step_apply (iblk m c 0 ⟨n, h⟩) (iblk m c 1 ⟨n, h⟩) acc u r q).trans ?_
  have hu : (ix3 (0 : Fin 1) r q : S1x2048x1024.Idx) = ix3 u r q := by
    have : u = 0 := Fin.ext (by omega)
    rw [this]
  rw [hu]

/-- The run of eight points from `b0`, at an index of the block: zero plus the eight addends. -/
theorem fold_apply (c : Dev nD) (b0 : ℕ) (h : b0 + 7 < cfg0.N) (y : S1x2048x1024.Idx) :
    Pipeline.accAt (Value.reset2 m c) (Value.step2 m c) b0 7 h y = 0 + ∑ s ∈ Finset.range 8, addend m c (b0 + s) y :=
  Pipeline.accAt_add_apply (ι := S1x2048x1024.Idx) (β := EReal) (Value.reset2 m c) (Value.step2 m c) (fun _ => 0)
    (addend m c) b0 7 (fun h i => reset_apply m c b0 h i) (fun n h acc i _ _ => step_apply m c n h acc i) 7 le_rfl h y

/-- A point's addend from the argument arrays: point `n` has batch `n / 16`, column block `n / 8 % 2` and
    step `n % 8`. -/
theorem addendAt_eq (c : Dev nD) (n : ℕ) (h : n < cfg0.N) (r' : Fin 2048) (q' : Fin 1024)
    (b : Fin 8) (s : Fin 8) (r q : Fin 2048)
    (hb : b.val = n / 16) (hs : s.val = n % 8) (hr : r.val = r'.val) (hq : q.val = 1024 * (n / 8 % 2) + q'.val) :
    addendAt m c n r' q'
      = ∑ k' : Fin 256, argA m c (ix3 b r ⟨256 * s.val + k'.val, by have := s.isLt; have := k'.isLt; omega⟩)
          * argB m c (ix3 b ⟨256 * s.val + k'.val, by have := s.isLt; have := k'.isLt; omega⟩ q) := by
  unfold addendAt
  rw [dif_pos h]
  refine Finset.sum_congr rfl fun k' _ => ?_
  exact congrArg₂ (· * ·)
    (Blocks.left_apply m c ⟨n, h⟩ 0 r' k' b r ⟨256 * s.val + k'.val, by have := s.isLt; have := k'.isLt; omega⟩ hb hr
      (by show 256 * s.val + k'.val = 256 * (n % 8) + k'.val; rw [hs]))
    (Blocks.right_apply m c ⟨n, h⟩ 0 k' q' b ⟨256 * s.val + k'.val, by have := s.isLt; have := k'.isLt; omega⟩ q hb
      (by show 256 * s.val + k'.val = 256 * (n % 8) + k'.val; rw [hs]) hq)

/-- The array the kernel ends with, typed as an array of extended reals. -/
abbrev out (c : Dev nD) : FVec Ideal S8x2048x2048 .f32 := Value.G2 m c

/-- Entry `(b, r, q)` of the array the kernel ends with is that entry of the batched product. -/
theorem out_apply (c : Dev nD) (b : Fin 8) (r q : Fin 2048) :
    out m c (ix3 b r q) = Cert.Bmm.entry (argA m c) (argB m c) b r q := by
  have hN : cfg0.N = 128 := N_0
  have hb := b.isLt
  have hr := r.isLt
  have hq := q.isLt
  have hrun : Value.run2Of (ix3 b r q) = 2 * b.val + q.val / 1024 := by
    show 2 * (b.val / 1 - 0) + 2 * (r.val / 2048 - 0) + 1 * (q.val / 1024 - 0) = _
    have : r.val / 2048 = 0 := by omega
    omega
  unfold out Value.G2
  rw [dif_pos (by rw [hrun, hN]; omega), fold_apply, zero_add, Finset.sum_range]
  unfold Cert.Bmm.entry
  rw [BlockSum.sum_blocks 8 256 (by norm_num) (fun k => argA m c (ix3 b r k) * argB m c (ix3 b k q))]
  refine Finset.sum_congr rfl fun s _ => ?_
  have hs := s.isLt
  refine addendAt_eq m c (8 * Value.run2Of (ix3 b r q) + s.val) (by rw [hrun, hN]; omega) _ _ b s r q ?_ ?_ ?_ ?_
  · rw [hrun]; omega
  · rw [hrun]; omega
  · show r.val = r.val % 2048; omega
  · show q.val = 1024 * ((8 * Value.run2Of (ix3 b r q) + s.val) / 8 % 2) + q.val % 1024
    rw [hrun]; omega

/-- The array the kernel ends with is the batched product of its two arguments. -/
theorem result_eq (c : Dev nD) : Value.G2 m c = Cert.Bmm.prod (argA m c) (argB m c) := by
  funext i
  obtain ⟨b, r, q, rfl⟩ : ∃ (b : Fin 8) (r : Fin 2048) (q : Fin 2048), i = ix3 b r q := ⟨i 0, i 1, i 2, eq_ix3 i⟩
  exact out_apply m c b r q

end Cert.KernelIdeal.Whole

end
-- ==== Proof.lean ====
/-
  A batched matrix product accumulated along the contracted axis, against one whole batched product.

  The kernel multiplies eight pairs of 2048 × 2048 matrices. Its grid is (batch, row block, column block,
  contraction step) = 8 × 1 × 2 × 8: an output block of 2048 × 1024 entries stays in place over the eight
  steps of a run, is set to zero at the first step, and at every step receives the product of a 2048 × 256 block of
  the left matrix and a 256 × 1024 block of the right matrix, both narrowed to bf16 on the way into the matrix
  unit. The reference is a single `dot_general` batching over the leading axis.

  On the extended reals the narrowing is the identity and each product is an exact sum, so entry `(b, r, q)` of
  the kernel's result is `0 + ∑ s < 8, ∑ k' < 256, A (b, r, 256 s + k') * B (b, 256 s + k', q)`, and of the
  reference's `∑ k < 2048, A (b, r, k) * B (b, k, q)`. The two agree because a finite sum may be regrouped
  into consecutive blocks, which uses only that the addition is commutative and associative: it holds at
  infinite entries too, and the precondition on the inputs is not used.

  The three frame claims come from the generated runs; nothing was rewritten by idealization, so that claim is
  trivial; the value claim sets the kernel's generated run (its result array as the fold of each run of eight
  points) and the reference's generated run side by side and identifies both result arrays with the one
  function `Cert.Bmm.prod` of the arguments.
-/
import proofs.«180169_j63831803953664_2_alg».proof.Defs
import proofs.«180169_j63831803953664_2_alg».proof.Proof.Gen.Kernel.Frame
import proofs.«180169_j63831803953664_2_alg».proof.Proof.Gen.KernelIdeal.Value
import proofs.«180169_j63831803953664_2_alg».proof.Proof.Gen.Pre_finite_inputs
import proofs.«180169_j63831803953664_2_alg».proof.Proof.Gen.ReferenceIdeal.Run
import proofs.«180169_j63831803953664_2_alg».proof.Proof.RefSide
import proofs.«180169_j63831803953664_2_alg».proof.Proof.KernelSide
import Idealize.ShloMosaic.Adequacy
import Idealize.ShloMosaic.Init

noncomputable section

namespace Cert.Proof

open Idealize.ShloMosaic Idealize.SL.Sem

/-- The idealized kernel terminates without a fault and leaves its arguments as they were: its value run, with
    the statement about the result dropped. -/
theorem frame_KernelIdeal : frame_KernelIdeal := fun m ρ _ =>
  (θ_run Cert.KernelIdeal.defs _ _).mono (fun _ h c => (h c).2) (Cert.KernelIdeal.Value.run (F := Ideal) m ρ)

/-- The same for the idealized reference. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the two arguments both programs end with the batched product of those
    arguments: the reference's one contraction over 2048 positions, the kernel's eight accumulated contractions
    over 256 positions each. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, (hagree c).1, (hagree c).2]
  exact (Cert.ReferenceIdeal.RefValue.stage_eq _ _).trans (Cert.KernelIdeal.Whole.result_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
